-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S128x16 : Shape := ⟨2, ![128, 16]⟩
abbrev S16 : Shape := ⟨1, ![16]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v46 : IVec S_ 1) (main_v49 : IVec S_ 1) : IVec S_ 1 :=
  let main_v50 : IVec S_ 1 := andi main_v46 main_v49
  main_v50

def fn_part2 {F : FTy → Type} [FloatOps F] (main_arg9 : FVec F S128x16 .f32) (main_arg10 : FVec F S16 .f32) (main_arg11 : FVec F S_ .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S128x16 .f32 := Host.absf main_arg9
  let main_cst_14 : FVec F S_ .f32 := constant S_ .f32 0x7F800000#32
  let main_v38 : FVec F S128x16 .f32 := broadcastInDim S128x16 ![] bcast_S_S128x16 main_cst_14
  let main_v39 : IVec S128x16 1 := cmpf .olt main_v37 main_v38
  let main_c_15 : IVec S_ 1 := constantI S_ 1 1#1
  let main_v40 : IVec S_ 1 := (fun x v => Host.reduce IntOp.andi x v reducesTo_S128x16_S_d0_1 h_S_) main_v39 main_c_15
  let main_v41 : IVec S_ 1 := andi main_v36 main_v40
  let main_v42 : FVec F S16 .f32 := Host.absf main_arg10
  let main_cst_16 : FVec F S_ .f32 := constant S_ .f32 0x7F800000#32
  let main_v43 : FVec F S16 .f32 := broadcastInDim S16 ![] bcast_S_S16 main_cst_16
  let main_v44 : IVec S16 1 := cmpf .olt main_v42 main_v43
  let main_c_17 : IVec S_ 1 := constantI S_ 1 1#1
  let main_v45 : IVec S_ 1 := (fun x v => Host.reduce IntOp.andi x v reducesTo_S16_S_d0 h_S_) main_v44 main_c_17
  let main_v46 : IVec S_ 1 := andi main_v41 main_v45
  let main_v47 : FVec F S_ .f32 := Host.absf main_arg11
  let main_cst_18 : FVec F S_ .f32 := constant S_ .f32 0x7F800000#32
  let main_v48 : IVec S_ 1 := cmpf .olt main_v47 main_cst_18
  let main_c_19 : IVec S_ 1 := constantI S_ 1 1#1
  let main_v49 : IVec S_ 1 := (fun x v => Host.reduce IntOp.andi x v reducesTo_S_S_d h_S_) main_v48 main_c_19
  fn_part3 (F := F) main_v46 main_v49

def fn_part1 {F : FTy → Type} [FloatOps F] (main_arg5 : FVec F S_ .f32) (main_arg6 : FVec F S128x128 .f32) (main_arg7 : FVec F S128 .f32) (main_arg8 : FVec F S_ .f32) (main_arg9 : FVec F S128x16 .f32) (main_arg10 : FVec F S16 .f32) (main_arg11 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S128x128 .f32 := Host.absf main_arg6
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg7
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S_ .f32 := Host.absf main_arg8
  fn_part2 (F := F) main_arg9 main_arg10 main_arg11 main_v32 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S_ .f32) (main_arg6 : FVec F S128x128 .f32) (main_arg7 : FVec F S128 .f32) (main_arg8 : FVec F S_ .f32) (main_arg9 : FVec F S128x16 .f32) (main_arg10 : FVec F S16 .f32) (main_arg11 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S128x16 : Shape := ⟨2, ![128, 16]⟩
abbrev S16 : Shape := ⟨1, ![16]⟩
abbrev S1x1600000 : Shape := ⟨2, ![1, 1600000]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩
abbrev S100000 : Shape := ⟨1, ![100000]⟩
abbrev S100000x1 : Shape := ⟨2, ![100000, 1]⟩

abbrev nBuf : Space → Nat
  | .hbm => 96
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128x16, .f32⟩
  | .hbm, ⟨10, _⟩ => ⟨S16, .f32⟩
  | .hbm, ⟨11, _⟩ => ⟨S_, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x1, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S_, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x16, .f32⟩
  | .hbm, ⟨81, _⟩ => ⟨S100000x16, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x16, .f32⟩
  | .hbm, ⟨95, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S128x16 : Shape := ⟨2, ![128, 16]⟩
abbrev S16 : Shape := ⟨1, ![16]⟩
abbrev S1x1600000 : Shape := ⟨2, ![1, 1600000]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S_, .f32⟩
  | 6 => ⟨S128x128, .f32⟩
  | 7 => ⟨S128, .f32⟩
  | 8 => ⟨S_, .f32⟩
  | 9 => ⟨S128x16, .f32⟩
  | 10 => ⟨S16, .f32⟩
  | 11 => ⟨S_, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x1, .f32⟩
  | 26 => ⟨S1600000x128, .f32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S_, .f32⟩
  | 34 => ⟨S100000x128, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S100000, .f32⟩
  | 47 => ⟨S100000x1, .f32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x1, .f32⟩
  | 67 => ⟨S1600000x128, .f32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S_, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S_, .f32⟩
  | 112 => ⟨S_, .f32⟩
  | 113 => ⟨S100000x128, .f32⟩
  | 114 => ⟨S100000x128, .f32⟩
  | 115 => ⟨S100000x128, .f32⟩
  | 116 => ⟨S100000x16, .f32⟩
  | 117 => ⟨S1x16, .f32⟩
  | 118 => ⟨S100000x16, .f32⟩
  | 119 => ⟨S100000x16, .f32⟩
  | 120 => ⟨S_, .f32⟩
  | 121 => ⟨S100000x16, .f32⟩
  | 122 => ⟨S100000x16, .f32⟩
  | 123 => ⟨S_, .f32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x16, .f32⟩
  | 2 => ⟨S100000x16, .f32⟩
  | 3 => ⟨S100000x16, .f32⟩
  | 4 => ⟨S_, .f32⟩
  | 5 => ⟨S100000, .f32⟩
  | 6 => ⟨S100000x1, .f32⟩
  | 7 => ⟨S100000x16, .f32⟩
  | 8 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call3_cst : Ref sig .tc := ⟨.hbm, 82, rfl⟩
abbrev main_call3_v0 : Ref sig .tc := ⟨.hbm, 83, rfl⟩
abbrev main_v53 : Ref sig .tc := ⟨.hbm, 84, rfl⟩
abbrev main_call4_v0 : Ref sig .tc := ⟨.hbm, 85, rfl⟩
abbrev main_call4_cst : Ref sig .tc := ⟨.hbm, 86, rfl⟩
abbrev main_call4_v1 : Ref sig .tc := ⟨.hbm, 87, rfl⟩
abbrev main_call4_v2 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call5_cst : Ref sig .tc := ⟨.hbm, 95, rfl⟩
abbrev main_call5_v0 : Ref sig .tc := ⟨.hbm, 96, rfl⟩
abbrev main_v59 : Ref sig .tc := ⟨.hbm, 97, rfl⟩
abbrev main_c_8 : Ref sig .tc := ⟨.hbm, 98, rfl⟩
abbrev main_v60 : Ref sig .tc := ⟨.hbm, 99, rfl⟩
abbrev main_v61 : Ref sig .tc := ⟨.hbm, 100, rfl⟩
abbrev main_c_9 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_10 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call6_cst : Ref sig .tc := ⟨.hbm, 120, rfl⟩
abbrev main_call6_v0 : Ref sig .tc := ⟨.hbm, 121, rfl⟩
abbrev main_v78 : Ref sig .tc := ⟨.hbm, 122, rfl⟩
abbrev main_cst_12 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_14 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  bcast_S_S100000 : S_.BroadcastsInDim S100000 (![] : Fin 0 → Fin S100000.rank)
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel program's run with its two results named. The program is three launches of the dense layer
  between stretches of host operations; the buffers' contents at each boundary are a fold from the launch memory
  (the host stretch's operations applied in order; a launch's arrays at what its write-backs leave). Every weakly
  fair execution terminates with every unscoped buffer at the last boundary's contents, so the two result buffers
  end at the fold's value there and the argument arrays end as launched.
-/
import proofs.«145791_j33200097198350_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the logits buffer and the probabilities buffer at the last boundary's contents and the arguments as launched. -/
theorem run_ends : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       h c _ (mem_uc main_v68 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«145791_j33200097198350_1_alg».proof.Proof.LibKeepdims
import proofs.«145791_j33200097198350_1_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.LibNormLayer.lean ====
/-
  A dense layer clamped below at zero, and the same layer followed by a row normalization and a second clamp, over the
  extended reals, for any extents. With r q = max (sum over k of x k * w (k, q) + b q) 0 along one row x, the clamped
  layer's entry is r q and the normalized layer's entry is max (r q / max (sqrt (sum over j of r j * r j)) e) 0, where
  e is the value of a float word and 0 the value of the all-zero word.

  Two spellings of each are read here. A vector unit's: the operands narrowed to bf16 and multiplied into a zero
  accumulator, the bias held as one row and repeated down the rows, the row sums of squares re-laid as one column and
  spread along the rows. The host's: a contraction of the left operand's second axis with the right operand's first,
  the bias vector broadcast in two steps, the row sums started from the zero word and broadcast in two steps.
  A row of either layer depends on the same row of x only, so a band of consecutive rows of the layer is the layer
  of that band of rows.
-/
import proofs.«145791_j33200097198350_1_alg».proof.Proof.LibPlainDot
import proofs.«145791_j33200097198350_1_alg».proof.Proof.LibRowLogSoftmax

noncomputable section

namespace Cert.LibNormLayer

open Idealize.ShloMosaic Idealize.ShloMosaic.ValueIdx Cert.LibPlainDot

/-- One row of the clamped layer: at q, the larger of (sum over k of x k * w (k, q)) + b q and the zero word's value. -/
def reluRow {K N : ℕ} (x : Fin K → EReal) (w : FVec Ideal ⟨2, ![K, N]⟩ .f32) (b : Fin N → EReal) (q : Fin N) : EReal :=
  max ((∑ k : Fin K, x k * w (ix2 k q)) + b q) (Ideal.ofBits .f32 0x00000000#32)

/-- One row of the normalized layer: the clamped row divided by the larger of its Euclidean length and the value of
    the word e, clamped at zero once more. -/
def normRow {K N : ℕ} (e : BitVec 32) (x : Fin K → EReal) (w : FVec Ideal ⟨2, ![K, N]⟩ .f32) (b : Fin N → EReal) (q : Fin N) : EReal :=
  max (Ideal.div (reluRow x w b q)
      (max (Ideal.sqrt (∑ j : Fin N, reluRow x w b j * reluRow x w b j)) (Ideal.ofBits .f32 e)))
    (Ideal.ofBits .f32 0x00000000#32)

/-- The clamped layer of a matrix: row by row. -/
def reluLayer {M K N : ℕ} (x : FVec Ideal ⟨2, ![M, K]⟩ .f32) (w : FVec Ideal ⟨2, ![K, N]⟩ .f32) (b : Fin N → EReal) :
    FVec Ideal ⟨2, ![M, N]⟩ .f32 :=
  fun i => reluRow (fun k => x (ix2 (n0 := M) (i 0) k)) w b (i 1)

/-- The normalized layer of a matrix: row by row. -/
def normLayer {M K N : ℕ} (e : BitVec 32) (x : FVec Ideal ⟨2, ![M, K]⟩ .f32) (w : FVec Ideal ⟨2, ![K, N]⟩ .f32) (b : Fin N → EReal) :
    FVec Ideal ⟨2, ![M, N]⟩ .f32 :=
  fun i => normRow e (fun k => x (ix2 (n0 := M) (i 0) k)) w b (i 1)

theorem reluLayer_apply {M K N : ℕ} (x : FVec Ideal ⟨2, ![M, K]⟩ .f32) (w : FVec Ideal ⟨2, ![K, N]⟩ .f32) (b : Fin N → EReal)
    (p : Fin M) (q : Fin N) : reluLayer x w b (ix2 p q) = reluRow (fun k => x (ix2 p k)) w b q := rfl

theorem normLayer_apply {M K N : ℕ} (e : BitVec 32) (x : FVec Ideal ⟨2, ![M, K]⟩ .f32) (w : FVec Ideal ⟨2, ![K, N]⟩ .f32)
    (b : Fin N → EReal) (p : Fin M) (q : Fin N) : normLayer e x w b (ix2 p q) = normRow e (fun k => x (ix2 p k)) w b q := rfl

/-- The normalized layer is the clamped layer, normalized entry by entry along its rows. -/
theorem normLayer_of_relu {M K N : ℕ} (e : BitVec 32) (x : FVec Ideal ⟨2, ![M, K]⟩ .f32) (w : FVec Ideal ⟨2, ![K, N]⟩ .f32)
    (b : Fin N → EReal) (p : Fin M) (q : Fin N) :
    normLayer e x w b (ix2 p q)
      = max (Ideal.div (reluLayer x w b (ix2 p q))
          (max (Ideal.sqrt (∑ j : Fin N, reluLayer x w b (ix2 p j) * reluLayer x w b (ix2 p j))) (Ideal.ofBits .f32 e)))
        (Ideal.ofBits .f32 0x00000000#32) := rfl

/-! ## A band of rows -/

/-- Rows r, …, r + T − 1 of the clamped layer: when x holds those rows of X, the entry of the layer of x at y is the
    entry of the layer of X at the index whose row is r plus y's row and whose column is y's. -/
theorem reluLayer_rows {M K N T : ℕ} (X : FVec Ideal ⟨2, ![M, K]⟩ .f32) (x : FVec Ideal ⟨2, ![T, K]⟩ .f32)
    (w : FVec Ideal ⟨2, ![K, N]⟩ .f32) (b : Fin N → EReal) (r : ℕ)
    (hx : ∀ (p : Fin T) (k : Fin K) (hp : r + p.val < M), x (ix2 p k) = X (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    reluLayer x w b y = reluLayer X w b i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [reluLayer_apply, reluLayer_apply]
  refine congrArg (fun f => reluRow f w b q') (funext fun k => ?_)
  rw [hx p k (h0 ▸ p'.isLt), ← hp']

/-- The same for the normalized layer. -/
theorem normLayer_rows {M K N T : ℕ} (e : BitVec 32) (X : FVec Ideal ⟨2, ![M, K]⟩ .f32) (x : FVec Ideal ⟨2, ![T, K]⟩ .f32)
    (w : FVec Ideal ⟨2, ![K, N]⟩ .f32) (b : Fin N → EReal) (r : ℕ)
    (hx : ∀ (p : Fin T) (k : Fin K) (hp : r + p.val < M), x (ix2 p k) = X (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    normLayer e x w b y = normLayer e X w b i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [normLayer_apply, normLayer_apply]
  refine congrArg (fun f => normRow e f w b q') (funext fun k => ?_)
  rw [hx p k (h0 ▸ p'.isLt), ← hp']

/-- The band of rows again, with the weights and the bias of the band only known to agree with the whole layer's. -/
theorem reluLayer_band {M K N T : ℕ} (X : FVec Ideal ⟨2, ![M, K]⟩ .f32) (W : FVec Ideal ⟨2, ![K, N]⟩ .f32) (B : Fin N → EReal)
    (x : FVec Ideal ⟨2, ![T, K]⟩ .f32) (w : FVec Ideal ⟨2, ![K, N]⟩ .f32) (b : Fin N → EReal) (r : ℕ)
    (hx : ∀ (p : Fin T) (k : Fin K) (hp : r + p.val < M), x (ix2 p k) = X (ix2 ⟨r + p.val, hp⟩ k))
    (hw : ∀ z, w z = W z) (hb : ∀ q, b q = B q)
    (y : (⟨2, ![T, N]⟩ : Shape).Idx) (i : (⟨2, ![M, N]⟩ : Shape).Idx)
    (hi0 : (i 0).val = r + (y 0).val) (hi1 : (i 1).val = (y 1).val) :
    reluLayer x w b y = reluLayer X W B i := by
  obtain rfl : w = W := funext hw
  obtain rfl : b = B := funext hb
  exact reluLayer_rows X x w b r hx y i hi0 hi1

theorem normLayer_band {M K N T : ℕ} (e : BitVec 32) (X : FVec Ideal ⟨2, ![M, K]⟩ .f32) (W : FVec Ideal ⟨2, ![K, N]⟩ .f32)
    (B : Fin N → EReal) (x : FVec Ideal ⟨2, ![T, K]⟩ .f32) (w : FVec Ideal ⟨2, ![K, N]⟩ .f32) (b : Fin N → EReal) (r : ℕ)
    (hx : ∀ (p : Fin T) (k : Fin K) (hp : r + p.val < M), x (ix2 p k) = X (ix2 ⟨r + p.val, hp⟩ k))
    (hw : ∀ z, w z = W z) (hb : ∀ q, b q = B q)
    (y : (⟨2, ![T, N]⟩ : Shape).Idx) (i : (⟨2, ![M, N]⟩ : Shape).Idx)
    (hi0 : (i 0).val = r + (y 0).val) (hi1 : (i 1).val = (y 1).val) :
    normLayer e x w b y = normLayer e X W B i := by
  obtain rfl : w = W := funext hw
  obtain rfl : b = B := funext hb
  exact normLayer_rows e X x w b r hx y i hi0 hi1

/-! ## Entry by entry -/

theorem sqrt_apply {s : Shape} (x : FVec Ideal s .f32) (i : s.Idx) : sqrt x i = Ideal.sqrt (x i) := rfl
theorem hostSqrt_apply {s : Shape} (x : FVec Ideal s .f32) (i : s.Idx) : Host.sqrt (F := Ideal) x i = Ideal.sqrt (x i) := rfl
theorem hostDivf_apply {s : Shape} (x y : FVec Ideal s .f32) (i : s.Idx) :
    Host.divf (F := Ideal) x y i = Ideal.div (x i) (y i) := rfl

/-! ## The vector unit's spelling -/

/-- The clamped layer as a vector unit computes it: the left operand through an identity re-lay, both operands narrowed
    to bf16 and multiplied into a zero accumulator, the bias row through an identity re-lay and repeated down the rows,
    a maximum against the splat zero. -/
theorem vector_relu {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨2, ![1, N]⟩ .f32)
    (hb : FTy.bf16.bits < FTy.f32.bits) (hx : (⟨2, ![M, K]⟩ : Shape).ShapeCasts ⟨2, ![M, K]⟩)
    (hc : (⟨2, ![1, N]⟩ : Shape).ShapeCasts ⟨2, ![1, N]⟩) (hbc : (⟨2, ![1, N]⟩ : Shape).Broadcasts ⟨2, ![M, N]⟩) :
    maximumf (addf (matmul d none (truncf .bf16 (shapeCast ⟨2, ![M, K]⟩ x hx) hb) (truncf .bf16 w hb)
          (constant ⟨2, ![M, N]⟩ .f32 0x00000000#32))
        (broadcastTo ⟨2, ![M, N]⟩ (shapeCast ⟨2, ![1, N]⟩ b hc) hbc))
      (broadcast ⟨2, ![M, N]⟩ (Scalar.ofBits (F := Ideal) .f32 0x00000000#32))
      = reluLayer x w (fun q => b (ix2 (0 : Fin 1) q)) := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, reluLayer_apply]
  refine congrArg (fun s => max (s + b (ix2 (0 : Fin 1) q)) (Ideal.ofBits .f32 0x00000000#32)) ?_
  refine (Ideal.matmul_constant_zero_apply d none _ _ (ix2 p q)).trans ?_
  exact plain_sum d h1 h2 h3 h4 h5 h6 x w p q

/-- The normalization as a vector unit computes it, of any matrix a: the row sums of squares re-laid as one column,
    their square roots clamped below at the value of e, the column spread along the rows, the quotient clamped at zero. -/
theorem vector_norm {M N : ℕ} (e : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec FTy.f32.bits) = FKind.add.neutral .f32 hφ)
    (hc : (⟨1, ![M]⟩ : Shape).ShapeCasts ⟨2, ![M, 1]⟩) (hbc : (⟨2, ![M, 1]⟩ : Shape).Broadcasts ⟨2, ![M, N]⟩)
    (p : Fin M) (q : Fin N) :
    maximumf (divf a (broadcastTo ⟨2, ![M, N]⟩
          (maximumf (sqrt (shapeCast ⟨2, ![M, 1]⟩ (multiReduction .add [1] ⟨1, ![M]⟩ (mulf a a) 0x00000000#32 hr hφ hacc) hc))
            (broadcast ⟨2, ![M, 1]⟩ (Scalar.ofBits (F := Ideal) .f32 e))) hbc))
        (broadcast ⟨2, ![M, N]⟩ (Scalar.ofBits (F := Ideal) .f32 0x00000000#32)) (ix2 p q)
      = max (Ideal.div (a (ix2 p q)) (max (Ideal.sqrt (∑ j : Fin N, a (ix2 p j) * a (ix2 p j))) (Ideal.ofBits .f32 e)))
          (Ideal.ofBits .f32 0x00000000#32) := by
  rw [maximumf_apply, divf_apply, Cert.LibColumn.broadcastTo_a1_ab_apply, maximumf_apply, sqrt_apply,
    Cert.LibColumn.shapeCast_a_a1_apply, Cert.LibKeepdims.sum_last2_apply]
  rfl

/-- The normalized layer as a vector unit computes it: the clamped layer, then the normalization. -/
theorem vector_layer {M K N : ℕ} (e : BitVec 32) (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨2, ![1, N]⟩ .f32)
    (hb : FTy.bf16.bits < FTy.f32.bits) (hx : (⟨2, ![M, K]⟩ : Shape).ShapeCasts ⟨2, ![M, K]⟩)
    (hc : (⟨2, ![1, N]⟩ : Shape).ShapeCasts ⟨2, ![1, N]⟩) (hbc : (⟨2, ![1, N]⟩ : Shape).Broadcasts ⟨2, ![M, N]⟩)
    (hr : (⟨2, ![M, N]⟩ : Shape).Reduces [1] (⟨1, ![M]⟩ : Shape)) (hφ : FKind.Formats .f32)
    (hacc : (0x00000000#32 : BitVec FTy.f32.bits) = FKind.add.neutral .f32 hφ)
    (hcol : (⟨1, ![M]⟩ : Shape).ShapeCasts ⟨2, ![M, 1]⟩) (hsp : (⟨2, ![M, 1]⟩ : Shape).Broadcasts ⟨2, ![M, N]⟩) :
    maximumf (divf
          (maximumf (addf (matmul d none (truncf .bf16 (shapeCast ⟨2, ![M, K]⟩ x hx) hb) (truncf .bf16 w hb)
                (constant ⟨2, ![M, N]⟩ .f32 0x00000000#32))
              (broadcastTo ⟨2, ![M, N]⟩ (shapeCast ⟨2, ![1, N]⟩ b hc) hbc))
            (broadcast ⟨2, ![M, N]⟩ (Scalar.ofBits (F := Ideal) .f32 0x00000000#32)))
          (broadcastTo ⟨2, ![M, N]⟩
            (maximumf (sqrt (shapeCast ⟨2, ![M, 1]⟩ (multiReduction .add [1] ⟨1, ![M]⟩
                (mulf
                  (maximumf (addf (matmul d none (truncf .bf16 (shapeCast ⟨2, ![M, K]⟩ x hx) hb) (truncf .bf16 w hb)
                        (constant ⟨2, ![M, N]⟩ .f32 0x00000000#32))
                      (broadcastTo ⟨2, ![M, N]⟩ (shapeCast ⟨2, ![1, N]⟩ b hc) hbc))
                    (broadcast ⟨2, ![M, N]⟩ (Scalar.ofBits (F := Ideal) .f32 0x00000000#32)))
                  (maximumf (addf (matmul d none (truncf .bf16 (shapeCast ⟨2, ![M, K]⟩ x hx) hb) (truncf .bf16 w hb)
                        (constant ⟨2, ![M, N]⟩ .f32 0x00000000#32))
                      (broadcastTo ⟨2, ![M, N]⟩ (shapeCast ⟨2, ![1, N]⟩ b hc) hbc))
                    (broadcast ⟨2, ![M, N]⟩ (Scalar.ofBits (F := Ideal) .f32 0x00000000#32))))
                0x00000000#32 hr hφ hacc) hcol))
              (broadcast ⟨2, ![M, 1]⟩ (Scalar.ofBits (F := Ideal) .f32 e))) hsp))
        (broadcast ⟨2, ![M, N]⟩ (Scalar.ofBits (F := Ideal) .f32 0x00000000#32))
      = normLayer e x w (fun q => b (ix2 (0 : Fin 1) q)) := by
  funext j
  obtain ⟨p, q, rfl⟩ : ∃ (p : Fin M) (q : Fin N), j = ix2 p q := ⟨j 0, j 1, eq_ix2 j⟩
  rw [vector_relu d h1 h2 h3 h4 h5 h6 x w b hb hx hc hbc, normLayer_of_relu]
  exact vector_norm e _ hr hφ hacc hcol hsp p q

/-! ## The host's spelling -/

/-- The clamped layer as the host computes it: the contraction, the bias vector broadcast to one row and then down the
    rows, a maximum against the broadcast zero. -/
theorem host_relu {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (F := Ideal) d none x w)
          (broadcastInDim ⟨2, ![M, N]⟩ ![0, 1] hbc (broadcastInDim ⟨2, ![1, N]⟩ ![1] hr b)))
        (broadcastInDim ⟨2, ![M, N]⟩ ![] h0 (constant (F := Ideal) ⟨0, ![]⟩ .f32 0x00000000#32))
      = reluLayer x w (fun q => b (ix1 q)) := by
  rw [dot_bias_eq d h1 h2 h3 h4 h5 h6 x w b hr hbc]
  funext j
  obtain ⟨p, q, rfl⟩ : ∃ (p : Fin M) (q : Fin N), j = ix2 p q := ⟨j 0, j 1, eq_ix2 j⟩
  rw [maximumf_apply, Cert.RowLogSoftmax.splat_apply, affine_apply, reluLayer_apply]
  rfl

/-- The normalization as the host computes it, of any matrix a. -/
theorem host_norm {M N : ℕ} (e : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hcol : (⟨1, ![M]⟩ : Shape).BroadcastsInDim ⟨2, ![M, 1]⟩ ![0])
    (he : (⟨0, ![]⟩ : Shape).BroadcastsInDim ⟨2, ![M, 1]⟩ ![])
    (hsp : (⟨2, ![M, 1]⟩ : Shape).BroadcastsInDim ⟨2, ![M, N]⟩ ![0, 1])
    (h0 : (⟨0, ![]⟩ : Shape).BroadcastsInDim ⟨2, ![M, N]⟩ ![]) (p : Fin M) (q : Fin N) :
    maximumf (Host.divf (F := Ideal) a (broadcastInDim ⟨2, ![M, N]⟩ ![0, 1] hsp
          (maximumf (Host.sqrt (F := Ideal) (broadcastInDim ⟨2, ![M, 1]⟩ ![0] hcol
              (Host.reduceAdd (F := Ideal) (mulf a a) (constant (F := Ideal) ⟨0, ![]⟩ .f32 0x00000000#32) hrt hu)))
            (broadcastInDim ⟨2, ![M, 1]⟩ ![] he (constant (F := Ideal) ⟨0, ![]⟩ .f32 e)))))
        (broadcastInDim ⟨2, ![M, N]⟩ ![] h0 (constant (F := Ideal) ⟨0, ![]⟩ .f32 0x00000000#32)) (ix2 p q)
      = max (Ideal.div (a (ix2 p q)) (max (Ideal.sqrt (∑ j : Fin N, a (ix2 p j) * a (ix2 p j))) (Ideal.ofBits .f32 e)))
          (Ideal.ofBits .f32 0x00000000#32) := by
  rw [maximumf_apply, Cert.RowLogSoftmax.splat_apply, hostDivf_apply, Cert.RowLogSoftmax.spread_apply, maximumf_apply,
    Cert.RowLogSoftmax.splat_apply, hostSqrt_apply, Cert.RowLogSoftmax.column_apply,
    Cert.RowLogSoftmax.host_rowSum _ hrt hr hu p]
  rfl

/-- The normalized layer as the host computes it. -/
theorem host_layer {M K N : ℕ} (e : BitVec 32) (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hrow : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![])
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hcol : (⟨1, ![M]⟩ : Shape).BroadcastsInDim ⟨2, ![M, 1]⟩ ![0])
    (he : (⟨0, ![]⟩ : Shape).BroadcastsInDim ⟨2, ![M, 1]⟩ ![])
    (hsp : (⟨2, ![M, 1]⟩ : Shape).BroadcastsInDim ⟨2, ![M, N]⟩ ![0, 1]) :
    maximumf (Host.divf (F := Ideal)
          (maximumf (addf (Host.dotGeneral (F := Ideal) d none x w)
              (broadcastInDim ⟨2, ![M, N]⟩ ![0, 1] hbc (broadcastInDim ⟨2, ![1, N]⟩ ![1] hrow b)))
            (broadcastInDim ⟨2, ![M, N]⟩ ![] h0 (constant (F := Ideal) ⟨0, ![]⟩ .f32 0x00000000#32)))
          (broadcastInDim ⟨2, ![M, N]⟩ ![0, 1] hsp
            (maximumf (Host.sqrt (F := Ideal) (broadcastInDim ⟨2, ![M, 1]⟩ ![0] hcol
                (Host.reduceAdd (F := Ideal)
                  (mulf
                    (maximumf (addf (Host.dotGeneral (F := Ideal) d none x w)
                        (broadcastInDim ⟨2, ![M, N]⟩ ![0, 1] hbc (broadcastInDim ⟨2, ![1, N]⟩ ![1] hrow b)))
                      (broadcastInDim ⟨2, ![M, N]⟩ ![] h0 (constant (F := Ideal) ⟨0, ![]⟩ .f32 0x00000000#32)))
                    (maximumf (addf (Host.dotGeneral (F := Ideal) d none x w)
                        (broadcastInDim ⟨2, ![M, N]⟩ ![0, 1] hbc (broadcastInDim ⟨2, ![1, N]⟩ ![1] hrow b)))
                      (broadcastInDim ⟨2, ![M, N]⟩ ![] h0 (constant (F := Ideal) ⟨0, ![]⟩ .f32 0x00000000#32))))
                  (constant (F := Ideal) ⟨0, ![]⟩ .f32 0x00000000#32) hrt hu)))
              (broadcastInDim ⟨2, ![M, 1]⟩ ![] he (constant (F := Ideal) ⟨0, ![]⟩ .f32 e)))))
        (broadcastInDim ⟨2, ![M, N]⟩ ![] h0 (constant (F := Ideal) ⟨0, ![]⟩ .f32 0x00000000#32))
      = normLayer e x w (fun q => b (ix1 q)) := by
  funext j
  obtain ⟨p, q, rfl⟩ : ∃ (p : Fin M) (q : Fin N), j = ix2 p q := ⟨j 0, j 1, eq_ix2 j⟩
  rw [host_relu d h1 h2 h3 h4 h5 h6 x w b hrow hbc h0, normLayer_of_relu]
  exact host_norm e _ hrt hr hu hcol he hsp h0 p q

end Cert.LibNormLayer

end
-- ==== Proof.Region0.lean ====
/-
  Launch 0 of the idealized kernel program, read as a value: whatever the buffers hold when the launch is entered,
  its output array ends holding the dense layer clamped at zero, normalized along its rows and clamped again, of the input array, the weight array and the
  one-row bias array as the launch finds them. The grid has 20 points; point t stages rows 5000 t … 5000 t + 4999 of the
  input, the whole weight array and the whole bias row, and writes back the same band of rows of the output. A band of
  rows of the layer is the layer of that band, so each write-back is that band of one function of the whole arrays, and
  the 20 bands cover the output array.
-/
import proofs.«145791_j33200097198350_1_alg».proof.Proof.Gen.KernelIdeal.Frame
import proofs.«145791_j33200097198350_1_alg».proof.Proof.LibNormLayer
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded blocks. -/
theorem pay_eq (x0 : Vec Ideal S5000x128 .f32) (x1 : Vec Ideal S128x128 .f32) (x2 : Vec Ideal S1x128 .f32) :
    k0_pay1 x0 x1 x2 = Cert.LibNormLayer.normLayer 0x2B8CBCCC#32 x0 x1 (fun q => x2 (ix2 (0 : Fin 1) q)) :=
  Cert.LibNormLayer.vector_layer 0x2B8CBCCC#32 dot_S5000x128_S128x128_S5000x128_1_0_0_1_n_n rfl rfl rfl rfl rfl rfl x0 x1 x2
    bitsLt_bf16_f32 shapeCasts_S5000x128_S5000x128 shapeCasts_S1x128_S1x128 broadcasts_S1x128_S5000x128
    reduces_S5000x128_S5000 (.inl rfl) rfl shapeCasts_S5000_S5000x1 broadcasts_S5000x1_S5000x128

/-- The printed index maps over the grid: the input and the output move one block of rows per point, the weights and
    the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer of the whole arrays. -/
theorem flushed_eq (c : Dev nD) (t : Fin cfg0.N) :
    (dat0 V c).flushed 3 t = ((cfg0.win 3).blk t).view.read (Elt Ideal)
      (Cert.LibNormLayer.normLayer 0x2B8CBCCC#32 (V c main_v20) (V c main_arg3) (fun q => V c main_v21 (ix2 (0 : Fin 1) q))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_eq]
  obtain ⟨e00, e01, e10, e11, e20, e21, e30, e31⟩ := idx_facts t
  funext j
  show Cert.LibNormLayer.normLayer 0x2B8CBCCC#32 (iblk0 V c 0 t) (iblk0 V c 1 t) (fun q => iblk0 V c 2 t (ix2 (0 : Fin 1) q)) j
    = Cert.LibNormLayer.normLayer 0x2B8CBCCC#32 (V c main_v20) (V c main_arg3) (fun q => V c main_v21 (ix2 (0 : Fin 1) q))
        (((cfg0.win 3).blk t).view.emb j)
  refine Cert.LibNormLayer.normLayer_band 0x2B8CBCCC#32 (V c main_v20) (V c main_arg3) (fun q => V c main_v21 (ix2 (0 : Fin 1) q))
    (iblk0 V c 0 t) (iblk0 V c 1 t) (fun q => iblk0 V c 2 t (ix2 (0 : Fin 1) q)) (t.val * 5000) ?_ ?_ ?_ j
    (((cfg0.win 3).blk t).view.emb j) ?_ ?_
  · intro p k hp
    show V c main_v20 (((cfg0.win 0).blk t).view.emb (ix2 p k)) = V c main_v20 (ix2 ⟨t.val * 5000 + p.val, hp⟩ k)
    refine congrArg (V c main_v20) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro z
    show V c main_arg3 (((cfg0.win 1).blk t).view.emb z) = V c main_arg3 z
    refine congrArg (V c main_arg3) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · intro q
    show V c main_v21 (((cfg0.win 2).blk t).view.emb (ix2 (0 : Fin 1) q)) = V c main_v21 (ix2 (0 : Fin 1) q)
    refine congrArg (V c main_v21) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show win0_3.index t (0 : Fin 2) * 5000 + 1 * (j 0).val = t.val * 5000 + (j 0).val; omega
  · show win0_3.index t (1 : Fin 2) * 128 + 1 * (j 1).val = (j 1).val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v22).slice (win0_3.rect t)).set ↔ _
  rw [View.set_slice_whole, Rect.mem_set_unit]
  exact Iff.rfl

/-- Every row of the output array is in the band of the point numbered by the row divided by 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨e00, e01, e10, e11, e20, e21, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- The output array after the launch: the layer of the arrays the launch was entered with. -/
theorem final (c : Dev nD) :
    (dat0 V c).arrAt 3 cfg0.N
      = Cert.LibNormLayer.normLayer 0x2B8CBCCC#32 (V c main_v20) (V c main_arg3) (fun q => V c main_v21 (ix2 (0 : Fin 1) q)) :=
  (dat0 V c).arrAt_eq_of_cover 3 _ (fun t _ => flushed_eq V c t) cover

end Cert.KernelIdeal.Region0

end
-- ==== Proof.Region1.lean ====
/-
  Launch 1 of the idealized kernel program, read as a value: whatever the buffers hold when the launch is entered,
  its output array ends holding the dense layer clamped at zero, normalized along its rows and clamped again, of the input array, the weight array and the
  one-row bias array as the launch finds them. The grid has 20 points; point t stages rows 5000 t … 5000 t + 4999 of the
  input, the whole weight array and the whole bias row, and writes back the same band of rows of the output. A band of
  rows of the layer is the layer of that band, so each write-back is that band of one function of the whole arrays, and
  the 20 bands cover the output array.
-/
import proofs.«145791_j33200097198350_1_alg».proof.Proof.Gen.KernelIdeal.Frame
import proofs.«145791_j33200097198350_1_alg».proof.Proof.LibNormLayer
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded blocks. -/
theorem pay_eq (x0 : Vec Ideal S5000x128 .f32) (x1 : Vec Ideal S128x128 .f32) (x2 : Vec Ideal S1x128 .f32) :
    k1_pay1 x0 x1 x2 = Cert.LibNormLayer.normLayer 0x2B8CBCCC#32 x0 x1 (fun q => x2 (ix2 (0 : Fin 1) q)) :=
  Cert.LibNormLayer.vector_layer 0x2B8CBCCC#32 dot_S5000x128_S128x128_S5000x128_1_0_0_1_n_n rfl rfl rfl rfl rfl rfl x0 x1 x2
    bitsLt_bf16_f32 shapeCasts_S5000x128_S5000x128 shapeCasts_S1x128_S1x128 broadcasts_S1x128_S5000x128
    reduces_S5000x128_S5000 (.inl rfl) rfl shapeCasts_S5000_S5000x1 broadcasts_S5000x1_S5000x128

/-- The printed index maps over the grid: the input and the output move one block of rows per point, the weights and
    the bias stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the whole arrays. -/
theorem flushed_eq (c : Dev nD) (t : Fin cfg1.N) :
    (dat1 V c).flushed 3 t = ((cfg1.win 3).blk t).view.read (Elt Ideal)
      (Cert.LibNormLayer.normLayer 0x2B8CBCCC#32 (V c main_v39) (V c main_arg6) (fun q => V c main_v40 (ix2 (0 : Fin 1) q))) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay_eq]
  obtain ⟨e00, e01, e10, e11, e20, e21, e30, e31⟩ := idx_facts t
  funext j
  show Cert.LibNormLayer.normLayer 0x2B8CBCCC#32 (iblk1 V c 0 t) (iblk1 V c 1 t) (fun q => iblk1 V c 2 t (ix2 (0 : Fin 1) q)) j
    = Cert.LibNormLayer.normLayer 0x2B8CBCCC#32 (V c main_v39) (V c main_arg6) (fun q => V c main_v40 (ix2 (0 : Fin 1) q))
        (((cfg1.win 3).blk t).view.emb j)
  refine Cert.LibNormLayer.normLayer_band 0x2B8CBCCC#32 (V c main_v39) (V c main_arg6) (fun q => V c main_v40 (ix2 (0 : Fin 1) q))
    (iblk1 V c 0 t) (iblk1 V c 1 t) (fun q => iblk1 V c 2 t (ix2 (0 : Fin 1) q)) (t.val * 5000) ?_ ?_ ?_ j
    (((cfg1.win 3).blk t).view.emb j) ?_ ?_
  · intro p k hp
    show V c main_v39 (((cfg1.win 0).blk t).view.emb (ix2 p k)) = V c main_v39 (ix2 ⟨t.val * 5000 + p.val, hp⟩ k)
    refine congrArg (V c main_v39) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro z
    show V c main_arg6 (((cfg1.win 1).blk t).view.emb z) = V c main_arg6 z
    refine congrArg (V c main_arg6) (funext fun a => Fin.ext ?_)
    match a with
    | ⟨0, _⟩ => show win1_1.index t (0 : Fin 2) * 128 + 1 * (z 0).val = (z 0).val; omega
    | ⟨1, _⟩ => show win1_1.index t (1 : Fin 2) * 128 + 1 * (z 1).val = (z 1).val; omega
  · intro q
    show V c main_v40 (((cfg1.win 2).blk t).view.emb (ix2 (0 : Fin 1) q)) = V c main_v40 (ix2 (0 : Fin 1) q)
    refine congrArg (V c main_v40) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show win1_3.index t (0 : Fin 2) * 5000 + 1 * (j 0).val = t.val * 5000 + (j 0).val; omega
  · show win1_3.index t (1 : Fin 2) * 128 + 1 * (j 1).val = (j 1).val; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v41).slice (win1_3.rect t)).set ↔ _
  rw [View.set_slice_whole, Rect.mem_set_unit]
  exact Iff.rfl

/-- Every row of the output array is in the band of the point numbered by the row divided by 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < cfg1.N := by
    show (i 0).val / 5000 < grid1.N
    rw [N_1]; omega
  obtain ⟨e00, e01, e10, e11, e20, e21, e30, e31⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e31]; omega

/-- The output array after the launch: the layer of the arrays the launch was entered with. -/
theorem final (c : Dev nD) :
    (dat1 V c).arrAt 3 cfg1.N
      = Cert.LibNormLayer.normLayer 0x2B8CBCCC#32 (V c main_v39) (V c main_arg6) (fun q => V c main_v40 (ix2 (0 : Fin 1) q)) :=
  (dat1 V c).arrAt_eq_of_cover 3 _ (fun t _ => flushed_eq V c t) cover

end Cert.KernelIdeal.Region1

end
-- ==== Proof.Region2.lean ====
/-
  Launch 2 of the idealized kernel program, read as a value: whatever the buffers hold when the launch is entered,
  its output array ends holding the dense layer clamped at zero, of the input array, the weight array and the
  one-row bias array as the launch finds them. The grid has 20 points; point t stages rows 5000 t … 5000 t + 4999 of the
  input, the whole weight array and the whole bias row, and writes back the same band of rows of the output. A band of
  rows of the layer is the layer of that band, so each write-back is that band of one function of the whole arrays, and
  the 20 bands cover the output array.
-/
import proofs.«145791_j33200097198350_1_alg».proof.Proof.Gen.KernelIdeal.Frame
import proofs.«145791_j33200097198350_1_alg».proof.Proof.LibNormLayer
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded blocks. -/
theorem pay_eq (x0 : Vec Ideal S5000x128 .f32) (x1 : Vec Ideal S128x16 .f32) (x2 : Vec Ideal S1x16 .f32) :
    k2_pay1 x0 x1 x2 = Cert.LibNormLayer.reluLayer x0 x1 (fun q => x2 (ix2 (0 : Fin 1) q)) :=
  Cert.LibNormLayer.vector_relu dot_S5000x128_S128x16_S5000x16_1_0_0_1_n_n rfl rfl rfl rfl rfl rfl x0 x1 x2
    bitsLt_bf16_f32 shapeCasts_S5000x128_S5000x128 shapeCasts_S1x16_S1x16 broadcasts_S1x16_S5000x16

/-- The printed index maps over the grid: the input and the output move one block of rows per point, the weights and
    the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer of the whole arrays. -/
theorem flushed_eq (c : Dev nD) (t : Fin cfg2.N) :
    (dat2 V c).flushed 3 t = ((cfg2.win 3).blk t).view.read (Elt Ideal)
      (Cert.LibNormLayer.reluLayer (V c main_v55) (V c main_arg9) (fun q => V c main_v56 (ix2 (0 : Fin 1) q))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x16) hz, View.ld_unit_zero (S := S1x16) hz]
  rw [pay_eq]
  obtain ⟨e00, e01, e10, e11, e20, e21, e30, e31⟩ := idx_facts t
  funext j
  show Cert.LibNormLayer.reluLayer (iblk2 V c 0 t) (iblk2 V c 1 t) (fun q => iblk2 V c 2 t (ix2 (0 : Fin 1) q)) j
    = Cert.LibNormLayer.reluLayer (V c main_v55) (V c main_arg9) (fun q => V c main_v56 (ix2 (0 : Fin 1) q))
        (((cfg2.win 3).blk t).view.emb j)
  refine Cert.LibNormLayer.reluLayer_band (V c main_v55) (V c main_arg9) (fun q => V c main_v56 (ix2 (0 : Fin 1) q))
    (iblk2 V c 0 t) (iblk2 V c 1 t) (fun q => iblk2 V c 2 t (ix2 (0 : Fin 1) q)) (t.val * 5000) ?_ ?_ ?_ j
    (((cfg2.win 3).blk t).view.emb j) ?_ ?_
  · intro p k hp
    show V c main_v55 (((cfg2.win 0).blk t).view.emb (ix2 p k)) = V c main_v55 (ix2 ⟨t.val * 5000 + p.val, hp⟩ k)
    refine congrArg (V c main_v55) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro z
    show V c main_arg9 (((cfg2.win 1).blk t).view.emb z) = V c main_arg9 z
    refine congrArg (V c main_arg9) (funext fun a => Fin.ext ?_)
    match a with
    | ⟨0, _⟩ => show win2_1.index t (0 : Fin 2) * 128 + 1 * (z 0).val = (z 0).val; omega
    | ⟨1, _⟩ => show win2_1.index t (1 : Fin 2) * 16 + 1 * (z 1).val = (z 1).val; omega
  · intro q
    show V c main_v56 (((cfg2.win 2).blk t).view.emb (ix2 (0 : Fin 1) q)) = V c main_v56 (ix2 (0 : Fin 1) q)
    refine congrArg (V c main_v56) (funext fun a => Fin.ext ?_)
    match a with
    | ⟨0, _⟩ => show win2_2.index t (0 : Fin 2) * 1 + 1 * 0 = 0; omega
    | ⟨1, _⟩ => show win2_2.index t (1 : Fin 2) * 16 + 1 * q.val = q.val; omega
  · show win2_3.index t (0 : Fin 2) * 5000 + 1 * (j 0).val = t.val * 5000 + (j 0).val; omega
  · show win2_3.index t (1 : Fin 2) * 16 + 1 * (j 1).val = (j 1).val; omega

/-- An index of the output array is in point t's block iff each coordinate is in the block's range on its axis. -/
theorem mem_blk (t : Fin cfg2.N) (i : S100000x16.Idx) :
    i ∈ ((cfg2.win 3).blk t).view.set ↔ ∀ a : Fin 2, win2_3.index t a * S5000x16.size a ≤ (i a).val
      ∧ (i a).val < win2_3.index t a * S5000x16.size a + S5000x16.size a := by
  show i ∈ ((View.whole main_v57).slice (win2_3.rect t)).set ↔ _
  rw [View.set_slice_whole, Rect.mem_set_unit]
  exact Iff.rfl

/-- Every row of the output array is in the band of the point numbered by the row divided by 5000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have ht : (i 0).val / 5000 < cfg2.N := by
    show (i 0).val / 5000 < grid2.N
    rw [N_2]; omega
  obtain ⟨e00, e01, e10, e11, e20, e21, e30, e31⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 16 ≤ (i 1).val
      ∧ (i 1).val < win2_3.index ⟨(i 0).val / 5000, ht⟩ (1 : Fin 2) * 16 + 16
    rw [e31]; omega

/-- The output array after the launch: the layer of the arrays the launch was entered with. -/
theorem final (c : Dev nD) :
    (dat2 V c).arrAt 3 cfg2.N
      = Cert.LibNormLayer.reluLayer (V c main_v55) (V c main_arg9) (fun q => V c main_v56 (ix2 (0 : Fin 1) q)) :=
  (dat2 V c).arrAt_eq_of_cover 3 _ (fun t _ => flushed_eq V c t) cover

end Cert.KernelIdeal.Region2

end
-- ==== Proof.RefLayers.lean ====
/-
  The reference program's three dense layers, each read as one function of the matrix it is applied to. The first two
  contract the node features with the weights, add the bias vector (broadcast to one row and then down the rows), clamp
  at zero, divide each row by the larger of its Euclidean length and a small constant, and clamp again: the normalized
  layer. The last contracts, adds the bias and clamps: the clamped layer. The matrix a layer is applied to — the
  node features combined with their aggregated neighbours — is left as it stands.
-/
import proofs.«145791_j33200097198350_1_alg».proof.Proof.Gen.ReferenceIdeal.Read
import proofs.«145791_j33200097198350_1_alg».proof.Proof.LibNormLayer

set_option maxRecDepth 16384

noncomputable section

namespace Cert.ReferenceIdeal.RefLayers

open Cert.ReferenceIdeal Cert.ReferenceIdeal.Read Cert.ReferenceIdeal.Facts₀ Cert.ReferenceIdeal.Facts
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S_, .f32⟩ : BufTy).Contents (Elt Ideal))
  (x6 : (⟨S128x128, .f32⟩ : BufTy).Contents (Elt Ideal)) (x7 : (⟨S128, .f32⟩ : BufTy).Contents (Elt Ideal))
  (x8 : (⟨S_, .f32⟩ : BufTy).Contents (Elt Ideal)) (x9 : (⟨S128x16, .f32⟩ : BufTy).Contents (Elt Ideal))
  (x10 : (⟨S16, .f32⟩ : BufTy).Contents (Elt Ideal)) (x11 : (⟨S_, .f32⟩ : BufTy).Contents (Elt Ideal))

/-- The first layer's output is the normalized layer of the first combined features. -/
theorem layer0 : val_main_v31 (F := Ideal) x0 x1 x2 x3 x4 x5
    = Cert.LibNormLayer.normLayer 0x2B8CBCCC#32 (val_main_v20 (F := Ideal) x0 x1 x2 x5) x3 (fun q => x4 (ix1 q)) := by
  unfold val_main_v31 val_main_call2_v0 val_main_call2_cst val_main_v30 val_main_v29 val_main_v28 val_main_v27 val_main_cst_2
    val_main_v26 val_main_call1_v2 val_main_call1_v1 val_main_call1_cst val_main_call1_v0 val_main_v25 val_main_call0_v0
    val_main_call0_cst val_main_v24 val_main_v23 val_main_v22 val_main_v21
  generalize val_main_v20 (F := Ideal) x0 x1 x2 x5 = X
  exact Cert.LibNormLayer.host_layer 0x2B8CBCCC#32 dot_S100000x128_S128x128_S100000x128_1_0_0_1_n_n rfl rfl rfl rfl rfl rfl X x3 x4
    bcast_S128_S1x128_1 bcast_S1x128_S100000x128_0_1 bcast_S_S100000x128 reducesTo_S100000x128_S100000_d1 (by decide) h_S_
    bcast_S100000_S100000x1_0 bcast_S_S100000x1 bcast_S100000x1_S100000x128_0_1

/-- The second layer's output is the normalized layer of the second combined features. -/
theorem layer1 : val_main_v59 (F := Ideal) x0 x1 x2 x3 x4 x5 x6 x7 x8
    = Cert.LibNormLayer.normLayer 0x2B8CBCCC#32 (val_main_v48 (F := Ideal) x0 x1 x2 x3 x4 x5 x8) x6 (fun q => x7 (ix1 q)) := by
  unfold val_main_v59 val_main_call5_v0 val_main_call5_cst val_main_v58 val_main_v57 val_main_v56 val_main_v55 val_main_cst_7
    val_main_v54 val_main_call4_v2 val_main_call4_v1 val_main_call4_cst val_main_call4_v0 val_main_v53 val_main_call3_v0
    val_main_call3_cst val_main_v52 val_main_v51 val_main_v50 val_main_v49
  generalize val_main_v48 (F := Ideal) x0 x1 x2 x3 x4 x5 x8 = X
  exact Cert.LibNormLayer.host_layer 0x2B8CBCCC#32 dot_S100000x128_S128x128_S100000x128_1_0_0_1_n_n rfl rfl rfl rfl rfl rfl X x6 x7
    bcast_S128_S1x128_1 bcast_S1x128_S100000x128_0_1 bcast_S_S100000x128 reducesTo_S100000x128_S100000_d1 (by decide) h_S_
    bcast_S100000_S100000x1_0 bcast_S_S100000x1 bcast_S100000x1_S100000x128_0_1

/-- The last layer's output, the logits, is the clamped layer of the third combined features. -/
theorem layer2 : val_main_v78 (F := Ideal) x0 x1 x2 x3 x4 x5 x6 x7 x8 x9 x10 x11
    = Cert.LibNormLayer.reluLayer (val_main_v73 (F := Ideal) x0 x1 x2 x3 x4 x5 x6 x7 x8 x11) x9 (fun q => x10 (ix1 q)) := by
  unfold val_main_v78 val_main_call6_v0 val_main_call6_cst val_main_v77 val_main_v76 val_main_v75 val_main_v74
  generalize val_main_v73 (F := Ideal) x0 x1 x2 x3 x4 x5 x6 x7 x8 x11 = X
  exact Cert.LibNormLayer.host_relu dot_S100000x128_S128x16_S100000x16_1_0_0_1_n_n rfl rfl rfl rfl rfl rfl X x9 x10
    bcast_S16_S1x16_1 bcast_S1x16_S100000x16_0_1 bcast_S_S100000x16

end Cert.ReferenceIdeal.RefLayers

end
-- ==== Proof.Chain.lean ====
/-
  The idealized kernel program's buffers at each boundary between its host stretches and its three launches, read as
  the reference's own stages of the launch arguments. The host stretches of the two programs are the same operations
  (the edge lists sliced out of the index array, the neighbours' features gathered, weighted and summed into their
  targets, the features scaled and added), so a stretch's results are the reference's stages of the same name once
  its inputs are; and a launch's output array is the dense layer of its input arrays, which is what the reference's
  layer computes of the same matrix. Followed from the launch memory to the return, the logits buffer ends at the
  reference's logits stage and the probabilities buffer at its probabilities stage.
-/
import proofs.«145791_j33200097198350_1_alg».proof.Proof.Gen.KernelIdeal.Frame
import proofs.«145791_j33200097198350_1_alg».proof.Proof.Gen.ReferenceIdeal.Read
import proofs.«145791_j33200097198350_1_alg».proof.Proof.Region0
import proofs.«145791_j33200097198350_1_alg».proof.Proof.Region1
import proofs.«145791_j33200097198350_1_alg».proof.Proof.Region2
import proofs.«145791_j33200097198350_1_alg».proof.Proof.RefLayers
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v1 val_main_v3 val_main_v20 val_main_v31 val_main_v48 val_main_v59 val_main_v73 val_main_v78 val_main_v89)

variable (m : (ℓ : Loc nD τ sig) → Buf (Elt Ideal) ℓ) (ρ : Dev nD → PrngReg) (c : Dev nD)

/-! ## The launch arguments -/

abbrev a0 : (⟨S100000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S1600000, .f32⟩ : BufTy).Contents (Elt Ideal) := m ((c : Thread nD τ).loc main_arg2)
abbrev a3 : (⟨S128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S_, .f32⟩ : BufTy).Contents (Elt Ideal) := m ((c : Thread nD τ).loc main_arg5)
abbrev a6 : (⟨S128x128, .f32⟩ : BufTy).Contents (Elt Ideal) := m ((c : Thread nD τ).loc main_arg6)
abbrev a7 : (⟨S128, .f32⟩ : BufTy).Contents (Elt Ideal) := m ((c : Thread nD τ).loc main_arg7)
abbrev a8 : (⟨S_, .f32⟩ : BufTy).Contents (Elt Ideal) := m ((c : Thread nD τ).loc main_arg8)
abbrev a9 : (⟨S128x16, .f32⟩ : BufTy).Contents (Elt Ideal) := m ((c : Thread nD τ).loc main_arg9)
abbrev a10 : (⟨S16, .f32⟩ : BufTy).Contents (Elt Ideal) := m ((c : Thread nD τ).loc main_arg10)
abbrev a11 : (⟨S_, .f32⟩ : BufTy).Contents (Elt Ideal) := m ((c : Thread nD τ).loc main_arg11)

/-! ## After the first host stretch -/

/-- The first combined features. -/
theorem W1_v20 : (W1 m ρ c (Proc.devRef .tc main_v20) : (⟨S100000x128, .f32⟩ : BufTy).Contents (Elt Ideal))
    = val_main_v20 (F := Ideal) (a0 m c) (a1 m c) (a2 m c) (a5 m c) := by
  show StableHlo.after hostOps0 (W0 m ρ c) (Proc.devRef .tc main_v20) = _
  after_results_simp <;> rfl

theorem W1_arg3 : (W1 m ρ c (Proc.devRef .tc main_arg3) : (⟨S128x128, .f32⟩ : BufTy).Contents (Elt Ideal)) = a3 m c := by
  show StableHlo.after hostOps0 (W0 m ρ c) (Proc.devRef .tc main_arg3) = _
  after_results_simp <;> rfl

/-- The first bias, re-laid as one row. -/
theorem W1_v21 (q : Fin 128) :
    (W1 m ρ c (Proc.devRef .tc main_v21) : (⟨S1x128, .f32⟩ : BufTy).Contents (Elt Ideal)) (ix2 (0 : Fin 1) q) = a4 m c (ix1 q) := by
  have e : (W1 m ρ c (Proc.devRef .tc main_v21) : (⟨S1x128, .f32⟩ : BufTy).Contents (Elt Ideal))
      = shapeCast S1x128 (a4 m c) shapeCasts_S128_S1x128 := by
    show StableHlo.after hostOps0 (W0 m ρ c) (Proc.devRef .tc main_v21) = _
    after_results_simp <;> rfl
  rw [e]
  exact shapeCast_a_1a_apply _ _ 0 q

theorem W1_v1 : (W1 m ρ c (Proc.devRef .tc main_v1) : (⟨S1600000, .i32⟩ : BufTy).Contents (Elt Ideal)) = val_main_v1 (F := Ideal) (a1 m c) := by
  show StableHlo.after hostOps0 (W0 m ρ c) (Proc.devRef .tc main_v1) = _
  after_results_simp <;> rfl
theorem W1_v3 : (W1 m ρ c (Proc.devRef .tc main_v3) : (⟨S1600000, .i32⟩ : BufTy).Contents (Elt Ideal)) = val_main_v3 (F := Ideal) (a1 m c) := by
  show StableHlo.after hostOps0 (W0 m ρ c) (Proc.devRef .tc main_v3) = _
  after_results_simp <;> rfl
theorem W1_arg2 : (W1 m ρ c (Proc.devRef .tc main_arg2) : (⟨S1600000, .f32⟩ : BufTy).Contents (Elt Ideal)) = a2 m c := by
  show StableHlo.after hostOps0 (W0 m ρ c) (Proc.devRef .tc main_arg2) = _
  after_results_simp <;> rfl
theorem W1_arg6 : (W1 m ρ c (Proc.devRef .tc main_arg6) : (⟨S128x128, .f32⟩ : BufTy).Contents (Elt Ideal)) = a6 m c := by
  show StableHlo.after hostOps0 (W0 m ρ c) (Proc.devRef .tc main_arg6) = _
  after_results_simp <;> rfl
theorem W1_arg7 : (W1 m ρ c (Proc.devRef .tc main_arg7) : (⟨S128, .f32⟩ : BufTy).Contents (Elt Ideal)) = a7 m c := by
  show StableHlo.after hostOps0 (W0 m ρ c) (Proc.devRef .tc main_arg7) = _
  after_results_simp <;> rfl
theorem W1_arg8 : (W1 m ρ c (Proc.devRef .tc main_arg8) : (⟨S_, .f32⟩ : BufTy).Contents (Elt Ideal)) = a8 m c := by
  show StableHlo.after hostOps0 (W0 m ρ c) (Proc.devRef .tc main_arg8) = _
  after_results_simp <;> rfl
theorem W1_arg9 : (W1 m ρ c (Proc.devRef .tc main_arg9) : (⟨S128x16, .f32⟩ : BufTy).Contents (Elt Ideal)) = a9 m c := by
  show StableHlo.after hostOps0 (W0 m ρ c) (Proc.devRef .tc main_arg9) = _
  after_results_simp <;> rfl
theorem W1_arg10 : (W1 m ρ c (Proc.devRef .tc main_arg10) : (⟨S16, .f32⟩ : BufTy).Contents (Elt Ideal)) = a10 m c := by
  show StableHlo.after hostOps0 (W0 m ρ c) (Proc.devRef .tc main_arg10) = _
  after_results_simp <;> rfl
theorem W1_arg11 : (W1 m ρ c (Proc.devRef .tc main_arg11) : (⟨S_, .f32⟩ : BufTy).Contents (Elt Ideal)) = a11 m c := by
  show StableHlo.after hostOps0 (W0 m ρ c) (Proc.devRef .tc main_arg11) = _
  after_results_simp <;> rfl

/-! ## After the first launch -/

/-- The first layer's output. -/
theorem W2_v22 : (W2 m ρ c (Proc.devRef .tc main_v22) : (⟨S100000x128, .f32⟩ : BufTy).Contents (Elt Ideal))
    = val_main_v31 (F := Ideal) (a0 m c) (a1 m c) (a2 m c) (a3 m c) (a4 m c) (a5 m c) := by
  refine (W2_arr m ρ c (3 : Fin cfg0.W)).trans ?_
  rw [Cert.KernelIdeal.Region0.final (V1 m ρ) c, Cert.ReferenceIdeal.RefLayers.layer0]
  exact congr (congr (congrArg (Cert.LibNormLayer.normLayer 0x2B8CBCCC#32) (W1_v20 m ρ c)) (W1_arg3 m ρ c))
    (funext fun q => W1_v21 m ρ c q)

theorem W2_v1 : (W2 m ρ c (Proc.devRef .tc main_v1) : (⟨S1600000, .i32⟩ : BufTy).Contents (Elt Ideal)) = val_main_v1 (F := Ideal) (a1 m c) :=
  (W2_of_ne m ρ c main_v1 (by decide)).trans (W1_v1 m ρ c)
theorem W2_v3 : (W2 m ρ c (Proc.devRef .tc main_v3) : (⟨S1600000, .i32⟩ : BufTy).Contents (Elt Ideal)) = val_main_v3 (F := Ideal) (a1 m c) :=
  (W2_of_ne m ρ c main_v3 (by decide)).trans (W1_v3 m ρ c)
theorem W2_arg2 : (W2 m ρ c (Proc.devRef .tc main_arg2) : (⟨S1600000, .f32⟩ : BufTy).Contents (Elt Ideal)) = a2 m c :=
  (W2_of_ne m ρ c main_arg2 (by decide)).trans (W1_arg2 m ρ c)
theorem W2_arg6 : (W2 m ρ c (Proc.devRef .tc main_arg6) : (⟨S128x128, .f32⟩ : BufTy).Contents (Elt Ideal)) = a6 m c :=
  (W2_of_ne m ρ c main_arg6 (by decide)).trans (W1_arg6 m ρ c)
theorem W2_arg7 : (W2 m ρ c (Proc.devRef .tc main_arg7) : (⟨S128, .f32⟩ : BufTy).Contents (Elt Ideal)) = a7 m c :=
  (W2_of_ne m ρ c main_arg7 (by decide)).trans (W1_arg7 m ρ c)
theorem W2_arg8 : (W2 m ρ c (Proc.devRef .tc main_arg8) : (⟨S_, .f32⟩ : BufTy).Contents (Elt Ideal)) = a8 m c :=
  (W2_of_ne m ρ c main_arg8 (by decide)).trans (W1_arg8 m ρ c)
theorem W2_arg9 : (W2 m ρ c (Proc.devRef .tc main_arg9) : (⟨S128x16, .f32⟩ : BufTy).Contents (Elt Ideal)) = a9 m c :=
  (W2_of_ne m ρ c main_arg9 (by decide)).trans (W1_arg9 m ρ c)
theorem W2_arg10 : (W2 m ρ c (Proc.devRef .tc main_arg10) : (⟨S16, .f32⟩ : BufTy).Contents (Elt Ideal)) = a10 m c :=
  (W2_of_ne m ρ c main_arg10 (by decide)).trans (W1_arg10 m ρ c)
theorem W2_arg11 : (W2 m ρ c (Proc.devRef .tc main_arg11) : (⟨S_, .f32⟩ : BufTy).Contents (Elt Ideal)) = a11 m c :=
  (W2_of_ne m ρ c main_arg11 (by decide)).trans (W1_arg11 m ρ c)

/-! ## After the second host stretch -/

/-- The second combined features. -/
theorem W3_v39 : (W3 m ρ c (Proc.devRef .tc main_v39) : (⟨S100000x128, .f32⟩ : BufTy).Contents (Elt Ideal))
    = val_main_v48 (F := Ideal) (a0 m c) (a1 m c) (a2 m c) (a3 m c) (a4 m c) (a5 m c) (a8 m c) := by
  show StableHlo.after hostOps1 (W2 m ρ c) (Proc.devRef .tc main_v39) = _
  after_results_simp
  rw [W2_v22 m ρ c, W2_v1 m ρ c, W2_v3 m ρ c, W2_arg2 m ρ c, W2_arg8 m ρ c]
  rfl

theorem W3_arg6 : (W3 m ρ c (Proc.devRef .tc main_arg6) : (⟨S128x128, .f32⟩ : BufTy).Contents (Elt Ideal)) = a6 m c := by
  show StableHlo.after hostOps1 (W2 m ρ c) (Proc.devRef .tc main_arg6) = _
  after_results_simp
  exact W2_arg6 m ρ c

/-- The second bias, re-laid as one row. -/
theorem W3_v40 (q : Fin 128) :
    (W3 m ρ c (Proc.devRef .tc main_v40) : (⟨S1x128, .f32⟩ : BufTy).Contents (Elt Ideal)) (ix2 (0 : Fin 1) q) = a7 m c (ix1 q) := by
  have e : (W3 m ρ c (Proc.devRef .tc main_v40) : (⟨S1x128, .f32⟩ : BufTy).Contents (Elt Ideal))
      = shapeCast S1x128 (a7 m c) shapeCasts_S128_S1x128 := by
    show StableHlo.after hostOps1 (W2 m ρ c) (Proc.devRef .tc main_v40) = _
    after_results_simp
    rw [W2_arg7 m ρ c]
    rfl
  rw [e]
  exact shapeCast_a_1a_apply _ _ 0 q

theorem W3_v1 : (W3 m ρ c (Proc.devRef .tc main_v1) : (⟨S1600000, .i32⟩ : BufTy).Contents (Elt Ideal)) = val_main_v1 (F := Ideal) (a1 m c) := by
  show StableHlo.after hostOps1 (W2 m ρ c) (Proc.devRef .tc main_v1) = _
  after_results_simp
  exact W2_v1 m ρ c
theorem W3_v3 : (W3 m ρ c (Proc.devRef .tc main_v3) : (⟨S1600000, .i32⟩ : BufTy).Contents (Elt Ideal)) = val_main_v3 (F := Ideal) (a1 m c) := by
  show StableHlo.after hostOps1 (W2 m ρ c) (Proc.devRef .tc main_v3) = _
  after_results_simp
  exact W2_v3 m ρ c
theorem W3_arg9 : (W3 m ρ c (Proc.devRef .tc main_arg9) : (⟨S128x16, .f32⟩ : BufTy).Contents (Elt Ideal)) = a9 m c := by
  show StableHlo.after hostOps1 (W2 m ρ c) (Proc.devRef .tc main_arg9) = _
  after_results_simp
  exact W2_arg9 m ρ c
theorem W3_arg10 : (W3 m ρ c (Proc.devRef .tc main_arg10) : (⟨S16, .f32⟩ : BufTy).Contents (Elt Ideal)) = a10 m c := by
  show StableHlo.after hostOps1 (W2 m ρ c) (Proc.devRef .tc main_arg10) = _
  after_results_simp
  exact W2_arg10 m ρ c
theorem W3_arg11 : (W3 m ρ c (Proc.devRef .tc main_arg11) : (⟨S_, .f32⟩ : BufTy).Contents (Elt Ideal)) = a11 m c := by
  show StableHlo.after hostOps1 (W2 m ρ c) (Proc.devRef .tc main_arg11) = _
  after_results_simp
  exact W2_arg11 m ρ c

/-! ## After the second launch -/

/-- The second layer's output. -/
theorem W4_v41 : (W4 m ρ c (Proc.devRef .tc main_v41) : (⟨S100000x128, .f32⟩ : BufTy).Contents (Elt Ideal))
    = val_main_v59 (F := Ideal) (a0 m c) (a1 m c) (a2 m c) (a3 m c) (a4 m c) (a5 m c) (a6 m c) (a7 m c) (a8 m c) := by
  refine (W4_arr m ρ c (3 : Fin cfg1.W)).trans ?_
  rw [Cert.KernelIdeal.Region1.final (V3 m ρ) c, Cert.ReferenceIdeal.RefLayers.layer1]
  exact congr (congr (congrArg (Cert.LibNormLayer.normLayer 0x2B8CBCCC#32) (W3_v39 m ρ c)) (W3_arg6 m ρ c))
    (funext fun q => W3_v40 m ρ c q)

theorem W4_v1 : (W4 m ρ c (Proc.devRef .tc main_v1) : (⟨S1600000, .i32⟩ : BufTy).Contents (Elt Ideal)) = val_main_v1 (F := Ideal) (a1 m c) :=
  (W4_of_ne m ρ c main_v1 (by decide)).trans (W3_v1 m ρ c)
theorem W4_v3 : (W4 m ρ c (Proc.devRef .tc main_v3) : (⟨S1600000, .i32⟩ : BufTy).Contents (Elt Ideal)) = val_main_v3 (F := Ideal) (a1 m c) :=
  (W4_of_ne m ρ c main_v3 (by decide)).trans (W3_v3 m ρ c)
theorem W4_arg9 : (W4 m ρ c (Proc.devRef .tc main_arg9) : (⟨S128x16, .f32⟩ : BufTy).Contents (Elt Ideal)) = a9 m c :=
  (W4_of_ne m ρ c main_arg9 (by decide)).trans (W3_arg9 m ρ c)
theorem W4_arg10 : (W4 m ρ c (Proc.devRef .tc main_arg10) : (⟨S16, .f32⟩ : BufTy).Contents (Elt Ideal)) = a10 m c :=
  (W4_of_ne m ρ c main_arg10 (by decide)).trans (W3_arg10 m ρ c)
theorem W4_arg11 : (W4 m ρ c (Proc.devRef .tc main_arg11) : (⟨S_, .f32⟩ : BufTy).Contents (Elt Ideal)) = a11 m c :=
  (W4_of_ne m ρ c main_arg11 (by decide)).trans (W3_arg11 m ρ c)

/-! ## After the third host stretch -/

/-- The third combined features (the neighbours' features summed unweighted). -/
theorem W5_v55 : (W5 m ρ c (Proc.devRef .tc main_v55) : (⟨S100000x128, .f32⟩ : BufTy).Contents (Elt Ideal))
    = val_main_v73 (F := Ideal) (a0 m c) (a1 m c) (a2 m c) (a3 m c) (a4 m c) (a5 m c) (a6 m c) (a7 m c) (a8 m c) (a11 m c) := by
  show StableHlo.after hostOps2 (W4 m ρ c) (Proc.devRef .tc main_v55) = _
  after_results_simp
  rw [W4_v41 m ρ c, W4_v1 m ρ c, W4_v3 m ρ c, W4_arg11 m ρ c]
  rfl

theorem W5_arg9 : (W5 m ρ c (Proc.devRef .tc main_arg9) : (⟨S128x16, .f32⟩ : BufTy).Contents (Elt Ideal)) = a9 m c := by
  show StableHlo.after hostOps2 (W4 m ρ c) (Proc.devRef .tc main_arg9) = _
  after_results_simp
  exact W4_arg9 m ρ c

/-- The third bias, re-laid as one row. -/
theorem W5_v56 (q : Fin 16) :
    (W5 m ρ c (Proc.devRef .tc main_v56) : (⟨S1x16, .f32⟩ : BufTy).Contents (Elt Ideal)) (ix2 (0 : Fin 1) q) = a10 m c (ix1 q) := by
  have e : (W5 m ρ c (Proc.devRef .tc main_v56) : (⟨S1x16, .f32⟩ : BufTy).Contents (Elt Ideal))
      = shapeCast S1x16 (a10 m c) shapeCasts_S16_S1x16 := by
    show StableHlo.after hostOps2 (W4 m ρ c) (Proc.devRef .tc main_v56) = _
    after_results_simp
    rw [W4_arg10 m ρ c]
    rfl
  rw [e]
  exact shapeCast_a_1a_apply _ _ 0 q

/-! ## After the third launch, and at the return -/

/-- The logits. -/
theorem W6_v57 : (W6 m ρ c (Proc.devRef .tc main_v57) : (⟨S100000x16, .f32⟩ : BufTy).Contents (Elt Ideal))
    = val_main_v78 (F := Ideal) (a0 m c) (a1 m c) (a2 m c) (a3 m c) (a4 m c) (a5 m c) (a6 m c) (a7 m c) (a8 m c) (a9 m c) (a10 m c) (a11 m c) := by
  refine (W6_arr m ρ c (3 : Fin cfg2.W)).trans ?_
  rw [Cert.KernelIdeal.Region2.final (V5 m ρ) c, Cert.ReferenceIdeal.RefLayers.layer2]
  exact congr (congr (congrArg Cert.LibNormLayer.reluLayer (W5_v55 m ρ c)) (W5_arg9 m ρ c))
    (funext fun q => W5_v56 m ρ c q)

/-- The logits buffer is not written after the last launch. -/
theorem W7_v57 : (W7 m ρ c (Proc.devRef .tc main_v57) : (⟨S100000x16, .f32⟩ : BufTy).Contents (Elt Ideal))
    = val_main_v78 (F := Ideal) (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v57) = _
  after_results_simp
  exact W6_v57 m ρ c

/-- The probabilities: the row softmax of the logits, the same host operations in both programs. -/
theorem W7_v68 : (W7 m ρ c (Proc.devRef .tc main_v68) : (⟨S100000x16, .f32⟩ : BufTy).Contents (Elt Ideal))
    = val_main_v89 (F := Ideal) (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v68) = _
  after_results_simp
  rw [W6_v57 m ρ c]
  rfl

end Cert.KernelIdeal.Chain

end
-- ==== Proof.lean ====
/-
  The certificate's five claims for the three-layer graph network: three launches of a fused dense layer (a bf16
  matrix product with f32 accumulation, bias, clamp at zero, and for the first two layers a row normalization and a
  second clamp) between host stretches that gather each edge's source features, weight them, sum them into the
  targets and add the scaled features, with a row softmax of the logits at the end.

  Over the extended reals narrowing to bf16 is the identity, a matrix unit's product into a zero accumulator and the
  host's contraction are the same sums, and a lane reduction and the host's row sum from zero are the same sums; so each
  launch's output array is what the reference's layer computes of the same input matrix, row band by row band. The
  host stretches are the same operations in both programs. No law used needs the inputs to be finite, so the
  precondition is never opened. The two programs' frames are the generated frame runs; the reference's frame is its
  generated run with the results dropped; the idealization rewrote nothing, so there is nothing to preserve.
-/
import proofs.«145791_j33200097198350_1_alg».proof.Defs
import proofs.«145791_j33200097198350_1_alg».proof.Proof.Gen.Kernel
import proofs.«145791_j33200097198350_1_alg».proof.Proof.Gen.Kernel.Frame
import proofs.«145791_j33200097198350_1_alg».proof.Proof.Gen.KernelIdeal
import proofs.«145791_j33200097198350_1_alg».proof.Proof.Gen.KernelIdeal.Frame
import proofs.«145791_j33200097198350_1_alg».proof.Proof.Gen.ReferenceIdeal
import proofs.«145791_j33200097198350_1_alg».proof.Proof.Gen.Pre_finite_inputs
import proofs.«145791_j33200097198350_1_alg».proof.Proof.Gen.ReferenceIdeal.Run
import proofs.«145791_j33200097198350_1_alg».proof.Proof.Gen.ReferenceIdeal.Read
import proofs.«145791_j33200097198350_1_alg».proof.Proof.KernelRun
import proofs.«145791_j33200097198350_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the logits at the reference's logits stage of the launch arguments and the probabilities
    at its probabilities stage: the kernel program by the chain of its boundaries, the reference by its own run. -/
theorem algebraic : Cert.algebraic_KernelIdeal_ReferenceIdeal := by
  intro m ρ m' ρ' _ hagree
  refine ⟨fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.RunValue.run_ends (F := Ideal) m ρ)
    obtain ⟨h57, h68, hargs⟩ := h c
    exact ⟨h57.trans (Cert.KernelIdeal.Chain.W7_v57 m ρ c), h68.trans (Cert.KernelIdeal.Chain.W7_v68 m ρ c), hargs⟩
  · refine (θ_run Cert.ReferenceIdeal.defs _ _).mono (fun r h c => ?_) (Cert.ReferenceIdeal.Value.run (F := Ideal) m' ρ')
    obtain ⟨h78, h89, hargs⟩ := h c
    obtain ⟨g0, g1, g2, g3, g4, g5, g6, g7, g8, g9, g10, g11⟩ := hagree c
    refine ⟨h78.trans ?_, h89.trans ?_, hargs⟩
    · rw [Cert.ReferenceIdeal.Read.val_main_v78_eq, g0, g1, g2, g3, g4, g5, g6, g7, g8, g9, g10, g11]
    · rw [Cert.ReferenceIdeal.Read.val_main_v89_eq, g0, g1, g2, g3, g4, g5, g6, g7, g8, g9, g10, g11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
